-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v7_1)) (v3 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_v7_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1024x1024 .f32) (main_arg12 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  main_v63

def fn_part2 {F : FTy → Type} [FloatOps F] (main_arg7 : FVec F S1x1024 .f32) (main_arg8 : FVec F S1x1024 .f32) (main_arg9 : FVec F S1024x1024 .f32) (main_arg10 : FVec F S1024x1024 .f32) (main_arg11 : FVec F S1024x1024 .f32) (main_arg12 : FVec F S1024x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_v48 main_v49 main_v50

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1024x1024 .f32) (main_arg10 : FVec F S1024x1024 .f32) (main_arg11 : FVec F S1024x1024 .f32) (main_arg12 : FVec F S1024x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1024x1024 .f32) (main_arg10 : FVec F S1024x1024 .f32) (main_arg11 : FVec F S1024x1024 .f32) (main_arg12 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_v13 main_v16
-- ==== Kernel.lean ====
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 23
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S16384x1024, .f32⟩
  | .hbm, ⟨21, _⟩ => ⟨S16384x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1x1024_S1x1024 : S1x1024.ShapeCasts S1x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S16384x1024.size a
  hwx0_13 : ∀ i : grid0.Coords, EltTy.bits .f32 = 32 ∨ (Rect.block (s := S16384x1024) S512x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S16384x1024.size a
  hwx0_14 : ∀ i : grid0.Coords, EltTy.bits .f32 = 32 ∨ (Rect.block (s := S16384x1024) S512x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1024.size a ≤ S16384x1024.size a
  hwx0_15 : ∀ i : grid0.Coords, EltTy.bits .f32 = 32 ∨ (Rect.block (s := S16384x1024) S512x1024.size (cc0_transform_15 i) (hinb0_15 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7_0) S512x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7_1) S512x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_2) S512x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S1x1024_S16384x1024_0_1 : S1x1024.BroadcastsInDim S16384x1024 (![0, 1] : Fin 2 → Fin S16384x1024.rank)
  bcast_S_S1x1024 : S_.BroadcastsInDim S1x1024 (![] : Fin 0 → Fin S1x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  One step of RWKV time mixing on the extended reals, entry by entry, for any number of rows.

  A row `r` of the batch carries the current token `x`, the previous token `lx` and the running numerator `ln` and
  denominator `ld` of the attention state. Three interpolations `x·μ + lx·(1 − μ)` (one per learned row `μ`) are projected
  by the weight matrices to the key `k`, the value `v` and the receptance `r`; with `e = exp (bonus + k)` the attention
  read-out is `(ln + e·v) / (ld + e)`, gated by the logistic of the receptance and projected by the output matrix; the
  state moves to `w·ln + exp k · v` and `w·ld + exp k` with `w` the decay row.

  Every entry of the three results depends on ONE row of the four batch arrays: the congruence lemmas at the end say so,
  which is what lets a block of rows be computed apart from the others.
-/
import Idealize.ShloMosaic.Lib.ValueIdx
import Idealize.ShloMosaic.PureOps.Ideal

noncomputable section

open scoped BigOperators

namespace Cert.Rwkv

open Idealize.ShloMosaic Idealize.ShloMosaic.ValueIdx

/-- An `a × b` matrix of extended reals. -/
abbrev Mat (a b : ℕ) : Type := (⟨2, ![a, b]⟩ : Shape).Idx → EReal

/-- The number one as both programs spell it: the f32 word `0x3F800000`. -/
abbrev one : EReal := Ideal.ofBits .f32 0x3F800000#32

/-- The token-shift interpolation `x·μ + lx·(1 − μ)` at row `r`, column `k`. -/
def mixAt {R : ℕ} (x lx : Mat R 1024) (mu : Mat 1 1024) (r : Fin R) (k : Fin 1024) : EReal :=
  x (ix2 r k) * mu (ix2 (0 : Fin 1) k) + lx (ix2 r k) * (one - mu (ix2 (0 : Fin 1) k))

/-- The interpolated row `r` projected by `W`, at column `j`. -/
def projAt {R : ℕ} (x lx : Mat R 1024) (mu : Mat 1 1024) (W : Mat 1024 1024) (r : Fin R) (j : Fin 1024) : EReal :=
  ∑ k : Fin 1024, mixAt x lx mu r k * W (ix2 k j)

/-- The gated attention read-out from one entry of the state (`ln`, `ld`), the bonus `b`, and the key, value and
    receptance entries: `logistic rr · (ln + exp (b + kk)·vv) / (ld + exp (b + kk))`. -/
def gate (ln ld b kk vv rr : EReal) : EReal :=
  Ideal.logistic rr * Ideal.div (ln + Ideal.exp (b + kk) * vv) (ld + Ideal.exp (b + kk))

/-- The gated read-out at row `r`, column `k`. -/
def rwkvAt {R : ℕ} (x lx ln ld : Mat R 1024) (mk mv mr bon : Mat 1 1024) (Wk Wv Wr : Mat 1024 1024)
    (r : Fin R) (k : Fin 1024) : EReal :=
  gate (ln (ix2 r k)) (ld (ix2 r k)) (bon (ix2 (0 : Fin 1) k)) (projAt x lx mk Wk r k) (projAt x lx mv Wv r k)
    (projAt x lx mr Wr r k)

/-- The hidden output: the gated read-out of row `r` projected by `Wo`, at column `j`. -/
def hiddenAt {R : ℕ} (x lx ln ld : Mat R 1024) (mk mv mr bon : Mat 1 1024) (Wk Wv Wr Wo : Mat 1024 1024)
    (r : Fin R) (j : Fin 1024) : EReal :=
  ∑ k : Fin 1024, rwkvAt x lx ln ld mk mv mr bon Wk Wv Wr r k * Wo (ix2 k j)

/-- The new numerator `w·ln + exp k · v` at row `r`, column `j`. -/
def numAt {R : ℕ} (x lx ln : Mat R 1024) (mk mv w : Mat 1 1024) (Wk Wv : Mat 1024 1024) (r : Fin R) (j : Fin 1024) : EReal :=
  w (ix2 (0 : Fin 1) j) * ln (ix2 r j) + Ideal.exp (projAt x lx mk Wk r j) * projAt x lx mv Wv r j

/-- The new denominator `w·ld + exp k` at row `r`, column `j`. -/
def denAt {R : ℕ} (x lx ld : Mat R 1024) (mk w : Mat 1 1024) (Wk : Mat 1024 1024) (r : Fin R) (j : Fin 1024) : EReal :=
  w (ix2 (0 : Fin 1) j) * ld (ix2 r j) + Ideal.exp (projAt x lx mk Wk r j)

/-- The decay row `exp (−exp decay)`, kept whole: both programs compute it by the same three host operations on the
    learned decay row, before anything else reads it. -/
def decayRow (d : FVec Ideal ⟨2, ![1, 1024]⟩ .f32) : FVec Ideal ⟨2, ![1, 1024]⟩ .f32 :=
  Host.exp (Host.negf (Host.exp d))

/-! ## Each entry reads one row of the batch arrays -/

variable {R R' : ℕ}

theorem mixAt_congr (x lx : Mat R 1024) (x' lx' : Mat R' 1024) (mu : Mat 1 1024) (r : Fin R) (r' : Fin R')
    (hx : ∀ k, x (ix2 r k) = x' (ix2 r' k)) (hlx : ∀ k, lx (ix2 r k) = lx' (ix2 r' k)) (k : Fin 1024) :
    mixAt x lx mu r k = mixAt x' lx' mu r' k := by
  unfold mixAt; rw [hx k, hlx k]

theorem projAt_congr (x lx : Mat R 1024) (x' lx' : Mat R' 1024) (mu : Mat 1 1024) (W : Mat 1024 1024) (r : Fin R) (r' : Fin R')
    (hx : ∀ k, x (ix2 r k) = x' (ix2 r' k)) (hlx : ∀ k, lx (ix2 r k) = lx' (ix2 r' k)) (j : Fin 1024) :
    projAt x lx mu W r j = projAt x' lx' mu W r' j := by
  unfold projAt
  exact Finset.sum_congr rfl fun k _ => by rw [mixAt_congr x lx x' lx' mu r r' hx hlx k]

theorem rwkvAt_congr (x lx ln ld : Mat R 1024) (x' lx' ln' ld' : Mat R' 1024) (mk mv mr bon : Mat 1 1024)
    (Wk Wv Wr : Mat 1024 1024) (r : Fin R) (r' : Fin R')
    (hx : ∀ k, x (ix2 r k) = x' (ix2 r' k)) (hlx : ∀ k, lx (ix2 r k) = lx' (ix2 r' k))
    (hln : ∀ k, ln (ix2 r k) = ln' (ix2 r' k)) (hld : ∀ k, ld (ix2 r k) = ld' (ix2 r' k)) (k : Fin 1024) :
    rwkvAt x lx ln ld mk mv mr bon Wk Wv Wr r k = rwkvAt x' lx' ln' ld' mk mv mr bon Wk Wv Wr r' k := by
  unfold rwkvAt
  rw [hln k, hld k, projAt_congr x lx x' lx' mk Wk r r' hx hlx k, projAt_congr x lx x' lx' mv Wv r r' hx hlx k,
    projAt_congr x lx x' lx' mr Wr r r' hx hlx k]

theorem hiddenAt_congr (x lx ln ld : Mat R 1024) (x' lx' ln' ld' : Mat R' 1024) (mk mv mr bon : Mat 1 1024)
    (Wk Wv Wr Wo : Mat 1024 1024) (r : Fin R) (r' : Fin R')
    (hx : ∀ k, x (ix2 r k) = x' (ix2 r' k)) (hlx : ∀ k, lx (ix2 r k) = lx' (ix2 r' k))
    (hln : ∀ k, ln (ix2 r k) = ln' (ix2 r' k)) (hld : ∀ k, ld (ix2 r k) = ld' (ix2 r' k)) (j : Fin 1024) :
    hiddenAt x lx ln ld mk mv mr bon Wk Wv Wr Wo r j = hiddenAt x' lx' ln' ld' mk mv mr bon Wk Wv Wr Wo r' j := by
  unfold hiddenAt
  exact Finset.sum_congr rfl fun k _ => by
    rw [rwkvAt_congr x lx ln ld x' lx' ln' ld' mk mv mr bon Wk Wv Wr r r' hx hlx hln hld k]

theorem numAt_congr (x lx ln : Mat R 1024) (x' lx' ln' : Mat R' 1024) (mk mv w : Mat 1 1024) (Wk Wv : Mat 1024 1024)
    (r : Fin R) (r' : Fin R') (hx : ∀ k, x (ix2 r k) = x' (ix2 r' k)) (hlx : ∀ k, lx (ix2 r k) = lx' (ix2 r' k))
    (hln : ∀ k, ln (ix2 r k) = ln' (ix2 r' k)) (j : Fin 1024) :
    numAt x lx ln mk mv w Wk Wv r j = numAt x' lx' ln' mk mv w Wk Wv r' j := by
  unfold numAt
  rw [hln j, projAt_congr x lx x' lx' mk Wk r r' hx hlx j, projAt_congr x lx x' lx' mv Wv r r' hx hlx j]

theorem denAt_congr (x lx ld : Mat R 1024) (x' lx' ld' : Mat R' 1024) (mk w : Mat 1 1024) (Wk : Mat 1024 1024)
    (r : Fin R) (r' : Fin R') (hx : ∀ k, x (ix2 r k) = x' (ix2 r' k)) (hlx : ∀ k, lx (ix2 r k) = lx' (ix2 r' k))
    (hld : ∀ k, ld (ix2 r k) = ld' (ix2 r' k)) (j : Fin 1024) :
    denAt x lx ld mk w Wk r j = denAt x' lx' ld' mk w Wk r' j := by
  unfold denAt
  rw [hld j, projAt_congr x lx x' lx' mk Wk r r' hx hlx j]

end Cert.Rwkv

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.KernelPay.lean ====
/-
  The kernel body's arithmetic read entry by entry on the extended reals.

  Over one block of 512 rows the body forms the three interpolations, rounds them to bf16 (the identity here),
  multiplies by the resident weight matrices into a zero accumulator, and from the key, value and receptance blocks
  computes the gated read-out (again through a matrix product) and the two state updates. Entry (p, j) of each stored
  block is the time-mixing specification at row p of the block: a matrix product into zero is the plain sum over the
  contracted column, a row broadcast reads the row, a change of float format reads the same number.
-/
import proofs.«181762_j73409581023491_2_alg».proof.Proof.Gen.KernelIdeal.Skeleton
import proofs.«181762_j73409581023491_2_alg».proof.Proof.Spec
import proofs.«181762_j73409581023491_2_alg».proof.Proof.LibPlainMatmul
import Idealize.ShloMosaic.Lib.ValueLayout
import Idealize.ShloMosaic.Lib.Pipeline.Value
import Idealize.ShloMosaic.PureOps.Ideal.Laws

noncomputable section

open scoped BigOperators

namespace Cert.Rwkv.Kernel

open Cert.KernelIdeal Cert.KernelIdeal.Gen Idealize.ShloMosaic Idealize.ShloMosaic.ValueIdx Cert.Rwkv

/-- The body's contraction record is the plain `[512, 1024] × [1024, 1024]` product's. -/
theorem dot_plain : dot_S512x1024_S1024x1024_S512x1024_1_0_0_1_n_n = DotDims.plain 512 1024 1024 := rfl

/-- A block times a resident weight matrix into the zero accumulator, at entry (p, j): the sum over the contracted column. -/
theorem matmul_at (A : FVec Ideal S512x1024 .bf16) (B : FVec Ideal S1024x1024 .bf16) (p : Fin 512) (j : Fin 1024) :
    matmul dot_S512x1024_S1024x1024_S512x1024_1_0_0_1_n_n none A B (constant (F := Ideal) S512x1024 .f32 0x00000000#32) (ix2 p j)
      = ∑ k : Fin 1024, A (ix2 p k) * B (ix2 k j) := by
  rw [dot_plain]
  exact Cert.LibPlainMatmul.matmul_zero_apply none A B p j

/-- A learned row repeated down the block's 512 rows reads the row. -/
theorem row_at (v : FVec Ideal S1x1024 .f32) (h : S1x1024.Broadcasts S512x1024) (p : Fin 512) (k : Fin 1024) :
    broadcastTo S512x1024 v h (ix2 p k) = v (ix2 (0 : Fin 1) k) :=
  broadcastTo_1b_ab_apply v h p k

/-- One interpolation of the block, at (p, k). -/
theorem mix_at (v0 v1 : FVec Ideal S512x1024 .f32) (mu : FVec Ideal S1x1024 .f32) (h h' : S1x1024.Broadcasts S512x1024)
    (p : Fin 512) (k : Fin 1024) :
    addf (mulf v0 (broadcastTo S512x1024 mu h))
        (mulf v1 (broadcastTo S512x1024 (subf (broadcast S1x1024 (Scalar.ofBits (F := Ideal) .f32 0x3F800000#32)) mu) h')) (ix2 p k)
      = mixAt v0 v1 mu p k := by
  show v0 (ix2 p k) * broadcastTo S512x1024 mu h (ix2 p k)
      + v1 (ix2 p k) * broadcastTo S512x1024 (subf (broadcast S1x1024 (Scalar.ofBits (F := Ideal) .f32 0x3F800000#32)) mu) h' (ix2 p k) = _
  rw [row_at, row_at]
  rfl

/-- The receptance's interpolation, rounded to bf16: the interpolation. -/
theorem pay6_at (v0 v1 : Vec Ideal S512x1024 .f32) (v4 : Vec Ideal S1x1024 .f32) (p : Fin 512) (k : Fin 1024) :
    k0_pay6 v0 v1 v4 (ix2 p k) = mixAt v0 v1 v4 p k :=
  mix_at v0 v1 v4 _ _ p k

/-- The key block: the interpolation by `mix_k` projected by the key weights. -/
theorem pay7_at (v0 v1 : Vec Ideal S512x1024 .f32) (v2 : Vec Ideal S1x1024 .f32) (v29 : Vec Ideal S1024x1024 .bf16)
    (p : Fin 512) (j : Fin 1024) :
    k0_pay7 v0 v1 v2 v29 (ix2 p j) = projAt v0 v1 v2 v29 p j := by
  unfold k0_pay7 projAt
  refine (matmul_at _ _ p j).trans (Finset.sum_congr rfl fun k _ => ?_)
  rw [shapeCast_self]
  exact congrArg (· * v29 (ix2 k j)) (mix_at v0 v1 v2 _ _ p k)

/-- The value block: the interpolation by `mix_v` projected by the value weights. -/
theorem pay8_at (v0 v1 : Vec Ideal S512x1024 .f32) (v3 : Vec Ideal S1x1024 .f32) (v32 : Vec Ideal S1024x1024 .bf16)
    (p : Fin 512) (j : Fin 1024) :
    k0_pay8 v0 v1 v3 v32 (ix2 p j) = projAt v0 v1 v3 v32 p j := by
  unfold k0_pay8 projAt
  refine (matmul_at _ _ p j).trans (Finset.sum_congr rfl fun k _ => ?_)
  rw [shapeCast_self]
  exact congrArg (· * v32 (ix2 k j)) (mix_at v0 v1 v3 _ _ p k)

/-- The receptance weights pass through a cast to their own shape. -/
theorem pay9_eq (v35 : Vec Ideal S1024x1024 .bf16) : k0_pay9 v35 = v35 := by
  unfold k0_pay9
  exact shapeCast_self _ _

/-- The stored hidden block from the key, value and (rounded) receptance-input blocks: the gated read-out, rounded to
    bf16 (the identity), projected by the output weights. -/
theorem pay5_at (v28 : FVec Ideal S512x1024 .bf16) (v31 v34 : FVec Ideal S512x1024 .f32) (v36 : FVec Ideal S1024x1024 .bf16)
    (v39 v40 : Vec Ideal S512x1024 .f32) (v41 : Vec Ideal S1x1024 .f32) (v61 : Vec Ideal S1024x1024 .bf16)
    (p : Fin 512) (j : Fin 1024) :
    k0_pay5 v28 v31 v34 v36 (constant (F := Ideal) S512x1024 .f32 0x00000000#32) v39 v40 v41 v61 (ix2 p j)
      = ∑ k : Fin 1024, gate (v39 (ix2 p k)) (v40 (ix2 p k)) (v41 (ix2 (0 : Fin 1) k)) (v31 (ix2 p k)) (v34 (ix2 p k))
          (∑ k' : Fin 1024, v28 (ix2 p k') * v36 (ix2 k' k)) * v61 (ix2 k j) := by
  unfold k0_pay5
  refine (matmul_at _ _ p j).trans (Finset.sum_congr rfl fun k _ => ?_)
  rw [shapeCast_self]
  refine congrArg (· * v61 (ix2 k j)) ?_
  show Ideal.logistic (matmul dot_S512x1024_S1024x1024_S512x1024_1_0_0_1_n_n none v28 v36 (constant (F := Ideal) S512x1024 .f32 0x00000000#32) (ix2 p k))
      * Ideal.div (v39 (ix2 p k) + Ideal.exp (broadcastTo S512x1024 v41 _ (ix2 p k) + v31 (ix2 p k)) * v34 (ix2 p k))
          (v40 (ix2 p k) + Ideal.exp (broadcastTo S512x1024 v41 _ (ix2 p k) + v31 (ix2 p k))) = _
  rw [matmul_at, row_at]
  rfl

/-- Entry (p, j) of the stored hidden block is the specification's hidden output at row p of the block. -/
theorem hidden_block (x0 x1 x2 x3 : Vec Ideal S512x1024 .f32) (x4 x5 x6 x8 : Vec Ideal S1x1024 .f32)
    (x9 x10 x11 x12 : Vec Ideal S1024x1024 .bf16) (p : Fin 512) (j : Fin 1024) :
    k0_pay5 (k0_pay6 x0 x1 x6) (k0_pay7 x0 x1 x4 x9) (k0_pay8 x0 x1 x5 x10) (k0_pay9 x11)
        (constant (F := Ideal) S512x1024 .f32 0x00000000#32) x2 x3 x8 x12 (ix2 p j)
      = hiddenAt x0 x1 x2 x3 x4 x5 x6 x8 x9 x10 x11 x12 p j := by
  refine (pay5_at _ _ _ _ x2 x3 x8 x12 p j).trans ?_
  unfold hiddenAt rwkvAt
  refine Finset.sum_congr rfl fun k _ => ?_
  have hr : (∑ k' : Fin 1024, k0_pay6 x0 x1 x6 (ix2 p k') * k0_pay9 x11 (ix2 k' k)) = projAt x0 x1 x6 x11 p k := by
    unfold projAt
    rw [pay9_eq]
    exact Finset.sum_congr rfl fun k' _ => by rw [pay6_at]
  rw [hr, pay7_at, pay8_at]

/-- The stored numerator block from the key and value blocks. -/
theorem pay3_at (v31 v34 : FVec Ideal S512x1024 .f32) (v39 : Vec Ideal S512x1024 .f32) (v42 : Vec Ideal S1x1024 .f32)
    (p : Fin 512) (j : Fin 1024) :
    k0_pay3 v31 v34 v39 v42 (ix2 p j)
      = v42 (ix2 (0 : Fin 1) j) * v39 (ix2 p j) + Ideal.exp (v31 (ix2 p j)) * v34 (ix2 p j) := by
  unfold k0_pay3 k0_pay1 k0_pay2
  show broadcastTo S512x1024 (shapeCast S1x1024 v42 _) _ (ix2 p j) * v39 (ix2 p j) + Ideal.exp (v31 (ix2 p j)) * v34 (ix2 p j) = _
  rw [row_at, shapeCast_self]

/-- Entry (p, j) of the stored numerator block is the specification's new numerator at row p of the block. -/
theorem num_block (x0 x1 x2 : Vec Ideal S512x1024 .f32) (x4 x5 x7 : Vec Ideal S1x1024 .f32)
    (x9 x10 : Vec Ideal S1024x1024 .bf16) (p : Fin 512) (j : Fin 1024) :
    k0_pay3 (k0_pay7 x0 x1 x4 x9) (k0_pay8 x0 x1 x5 x10) x2 x7 (ix2 p j) = numAt x0 x1 x2 x4 x5 x7 x9 x10 p j := by
  rw [pay3_at, pay7_at, pay8_at]
  rfl

/-- The stored denominator block from the key block. -/
theorem pay4_at (v31 : FVec Ideal S512x1024 .f32) (v40 : Vec Ideal S512x1024 .f32) (v42 : Vec Ideal S1x1024 .f32)
    (p : Fin 512) (j : Fin 1024) :
    k0_pay4 v31 v40 v42 (ix2 p j) = v42 (ix2 (0 : Fin 1) j) * v40 (ix2 p j) + Ideal.exp (v31 (ix2 p j)) := by
  unfold k0_pay4 k0_pay1 k0_pay2
  show broadcastTo S512x1024 (shapeCast S1x1024 v42 _) _ (ix2 p j) * v40 (ix2 p j) + Ideal.exp (v31 (ix2 p j)) = _
  rw [row_at, shapeCast_self]

/-- Entry (p, j) of the stored denominator block is the specification's new denominator at row p of the block. -/
theorem den_block (x0 x1 x3 : Vec Ideal S512x1024 .f32) (x4 x7 : Vec Ideal S1x1024 .f32)
    (x9 : Vec Ideal S1024x1024 .bf16) (p : Fin 512) (j : Fin 1024) :
    k0_pay4 (k0_pay7 x0 x1 x4 x9) x3 x7 (ix2 p j) = denAt x0 x1 x3 x4 x7 x9 p j := by
  rw [pay4_at, pay7_at]
  rfl

/-! ## A point's stored blocks against the whole arrays

The block's four batch operands are rows of the arrays (row `p` of the block is row `r` of the batch), its learned rows
and weight matrices are the arrays themselves. -/

theorem hidden_point (x0 x1 x2 x3 : Vec Ideal S512x1024 .f32) (x4 x5 x6 x8 : Vec Ideal S1x1024 .f32)
    (x9 x10 x11 x12 : Vec Ideal S1024x1024 .bf16) (a0 a1 a2 a3 : Mat 16384 1024) (b4 b5 b6 b8 : Mat 1 1024)
    (w9 w10 w11 w12 : Mat 1024 1024) (p : Fin 512) (r : Fin 16384)
    (h0 : ∀ k, x0 (ix2 p k) = a0 (ix2 r k)) (h1 : ∀ k, x1 (ix2 p k) = a1 (ix2 r k))
    (h2 : ∀ k, x2 (ix2 p k) = a2 (ix2 r k)) (h3 : ∀ k, x3 (ix2 p k) = a3 (ix2 r k))
    (e4 : x4 = b4) (e5 : x5 = b5) (e6 : x6 = b6) (e8 : x8 = b8)
    (e9 : x9 = w9) (e10 : x10 = w10) (e11 : x11 = w11) (e12 : x12 = w12) (j : Fin 1024) :
    k0_pay5 (k0_pay6 x0 x1 x6) (k0_pay7 x0 x1 x4 x9) (k0_pay8 x0 x1 x5 x10) (k0_pay9 x11)
        (constant (F := Ideal) S512x1024 .f32 0x00000000#32) x2 x3 x8 x12 (ix2 p j)
      = hiddenAt a0 a1 a2 a3 b4 b5 b6 b8 w9 w10 w11 w12 r j := by
  subst e4 e5 e6 e8 e9 e10 e11 e12
  exact (hidden_block x0 x1 x2 x3 x4 x5 x6 x8 x9 x10 x11 x12 p j).trans
    (hiddenAt_congr x0 x1 x2 x3 a0 a1 a2 a3 x4 x5 x6 x8 x9 x10 x11 x12 p r h0 h1 h2 h3 j)

theorem num_point (x0 x1 x2 : Vec Ideal S512x1024 .f32) (x4 x5 x7 : Vec Ideal S1x1024 .f32)
    (x9 x10 : Vec Ideal S1024x1024 .bf16) (a0 a1 a2 : Mat 16384 1024) (b4 b5 b7 : Mat 1 1024)
    (w9 w10 : Mat 1024 1024) (p : Fin 512) (r : Fin 16384)
    (h0 : ∀ k, x0 (ix2 p k) = a0 (ix2 r k)) (h1 : ∀ k, x1 (ix2 p k) = a1 (ix2 r k))
    (h2 : ∀ k, x2 (ix2 p k) = a2 (ix2 r k))
    (e4 : x4 = b4) (e5 : x5 = b5) (e7 : x7 = b7) (e9 : x9 = w9) (e10 : x10 = w10) (j : Fin 1024) :
    k0_pay3 (k0_pay7 x0 x1 x4 x9) (k0_pay8 x0 x1 x5 x10) x2 x7 (ix2 p j) = numAt a0 a1 a2 b4 b5 b7 w9 w10 r j := by
  subst e4 e5 e7 e9 e10
  exact (num_block x0 x1 x2 x4 x5 x7 x9 x10 p j).trans
    (numAt_congr x0 x1 x2 a0 a1 a2 x4 x5 x7 x9 x10 p r h0 h1 h2 j)

theorem den_point (x0 x1 x3 : Vec Ideal S512x1024 .f32) (x4 x7 : Vec Ideal S1x1024 .f32)
    (x9 : Vec Ideal S1024x1024 .bf16) (a0 a1 a3 : Mat 16384 1024) (b4 b7 : Mat 1 1024)
    (w9 : Mat 1024 1024) (p : Fin 512) (r : Fin 16384)
    (h0 : ∀ k, x0 (ix2 p k) = a0 (ix2 r k)) (h1 : ∀ k, x1 (ix2 p k) = a1 (ix2 r k))
    (h3 : ∀ k, x3 (ix2 p k) = a3 (ix2 r k))
    (e4 : x4 = b4) (e7 : x7 = b7) (e9 : x9 = w9) (j : Fin 1024) :
    k0_pay4 (k0_pay7 x0 x1 x4 x9) x3 x7 (ix2 p j) = denAt a0 a1 a3 b4 b7 w9 r j := by
  subst e4 e7 e9
  exact (den_block x0 x1 x3 x4 x7 x9 p j).trans (denAt_congr x0 x1 x3 a0 a1 a3 x4 x7 x9 p r h0 h1 h3 j)

end Cert.Rwkv.Kernel

end
-- ==== Proof.KernelValue.lean ====
/-
  From blocks to arrays: what the kernel's three result arrays hold after the run.

  The grid has 32 points; point `t` stages rows `512 t … 512 t + 511` of the four batch arrays, the five learned rows and
  the four weight matrices whole, and writes back rows `512 t … 512 t + 511` of each result. The decay row and the bf16
  weights are computed by the host before the launch: the decay row is kept whole, and a change of float format is the
  identity. Since an entry of the specification reads one row of the batch arrays, the block a point writes back is the
  specification's rows `512 t … 512 t + 511`; the 32 blocks cover the 16384 rows (row `r` is in block `r / 512`), so each
  result array is the specification, entry by entry.
-/
import proofs.«181762_j73409581023491_2_alg».proof.Proof.Gen.KernelIdeal.Value
import proofs.«181762_j73409581023491_2_alg».proof.Proof.KernelPay
import proofs.«181762_j73409581023491_2_alg».proof.Proof.Spec
import Idealize.ShloMosaic.Lib.Pipeline.Value
import Idealize.ShloMosaic.Lib.StableHlo.Run
import Idealize.ShloMosaic.Lib.Tactic

noncomputable section

open scoped BigOperators

namespace Cert.Rwkv.KValue

open Cert.KernelIdeal Cert.KernelIdeal.Gen Cert.KernelIdeal.Value Idealize.ShloMosaic Idealize.ShloMosaic.TcCoe Idealize.SL.Sem
open Idealize.ShloMosaic.ValueIdx Cert.Rwkv Cert.Rwkv.Kernel
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

/-- Row `p` of point `t`'s block is row `512 t + p` of the batch. -/
def rowOf (t : Fin cfg0.N) (p : Fin 512) : Fin 16384 :=
  ⟨512 * t.val + p.val, by have := t.isLt; have hN : cfg0.N = 32 := N_0; have := p.isLt; omega⟩

/-! ## What the host wrote before the launch -/

/-- The decay window's array: `exp (−exp decay)`. -/
theorem V_decay (c : Dev nD) : (V m c main_v2 : S1x1024.Idx → EReal) = decayRow (m ((c : Thread nD τ).loc main_arg7)) := by
  dsimp only [Gen.V, Gen.hostOps0]; after_results; rfl
/-- The four weight arrays rounded to bf16: the weights. -/
theorem V_Wk (c : Dev nD) : (V m c main_v3 : S1024x1024.Idx → EReal) = (m ((c : Thread nD τ).loc main_arg9)) := by
  dsimp only [Gen.V, Gen.hostOps0]; after_results; rfl
theorem V_Wv (c : Dev nD) : (V m c main_v4 : S1024x1024.Idx → EReal) = (m ((c : Thread nD τ).loc main_arg10)) := by
  dsimp only [Gen.V, Gen.hostOps0]; after_results; rfl
theorem V_Wr (c : Dev nD) : (V m c main_v5 : S1024x1024.Idx → EReal) = (m ((c : Thread nD τ).loc main_arg11)) := by
  dsimp only [Gen.V, Gen.hostOps0]; after_results; rfl
theorem V_Wo (c : Dev nD) : (V m c main_v6 : S1024x1024.Idx → EReal) = (m ((c : Thread nD τ).loc main_arg12)) := by
  dsimp only [Gen.V, Gen.hostOps0]; after_results; rfl

/-! ## Each input window's block read off its array -/

/-- Window 0's block at point `t` is rows `512 t … 512 t + 511` of the current tokens. -/
theorem rows0 (c : Dev nD) (t : Fin cfg0.N) (p : Fin 512) (k : Fin 1024) :
    (iblk m c 0 t : Vec Ideal S512x1024 .f32) (ix2 p k)
      = ((m ((c : Thread nD τ).loc main_arg0)) : S16384x1024.Idx → EReal) (ix2 (rowOf t p) k) := by
  have hi := idx0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = 512 * t.val + p.val; rw [hi.1]; omega
  | ⟨1, _⟩ => show win0_0.index t (1 : Fin 2) * 1024 + 1 * k.val = k.val; rw [hi.2]; omega

/-- Window 4's block at every point is the whole `mix_k` row. -/
theorem whole4 (c : Dev nD) (t : Fin cfg0.N) :
    (iblk m c 4 t : Vec Ideal S1x1024 .f32) = ((m ((c : Thread nD τ).loc main_arg4)) : S1x1024.Idx → EReal) := by
  have hi := idx4 t
  unfold iblk
  funext y
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 2) * 1 + 1 * (y 0).val = (y 0).val; rw [hi.1]; omega
  | ⟨1, _⟩ => show win0_4.index t (1 : Fin 2) * 1024 + 1 * (y 1).val = (y 1).val; rw [hi.2]; omega

/-- Window 7's block at every point is the whole decay row. -/
theorem whole7 (c : Dev nD) (t : Fin cfg0.N) :
    (iblk m c 7 t : Vec Ideal S1x1024 .f32) = decayRow (m ((c : Thread nD τ).loc main_arg7)) := by
  have hi := idx7 t
  unfold iblk
  funext y
  rw [View.read_apply]
  show (V m c main_v2 : S1x1024.Idx → EReal) _ = _
  rw [V_decay]
  refine congrArg (decayRow (m ((c : Thread nD τ).loc main_arg7))) (funext fun a => Fin.ext ?_)
  match a with
  | ⟨0, _⟩ => show win0_7.index t (0 : Fin 2) * 1 + 1 * (y 0).val = (y 0).val; rw [hi.1]; omega
  | ⟨1, _⟩ => show win0_7.index t (1 : Fin 2) * 1024 + 1 * (y 1).val = (y 1).val; rw [hi.2]; omega

/-- Window 9's block at every point is the whole key weight matrix. -/
theorem whole9 (c : Dev nD) (t : Fin cfg0.N) :
    (iblk m c 9 t : Vec Ideal S1024x1024 .bf16) = ((m ((c : Thread nD τ).loc main_arg9)) : S1024x1024.Idx → EReal) := by
  have hi := idx9 t
  unfold iblk
  funext y
  rw [View.read_apply]
  show (V m c main_v3 : S1024x1024.Idx → EReal) _ = _
  rw [V_Wk]
  refine congrArg (m ((c : Thread nD τ).loc main_arg9)) (funext fun a => Fin.ext ?_)
  match a with
  | ⟨0, _⟩ => show win0_9.index t (0 : Fin 2) * 1024 + 1 * (y 0).val = (y 0).val; rw [hi.1]; omega
  | ⟨1, _⟩ => show win0_9.index t (1 : Fin 2) * 1024 + 1 * (y 1).val = (y 1).val; rw [hi.2]; omega

/-- Window 1's block at point `t` is rows `512 t … 512 t + 511` of the previous tokens. -/
theorem rows1 (c : Dev nD) (t : Fin cfg0.N) (p : Fin 512) (k : Fin 1024) :
    (iblk m c 1 t : Vec Ideal S512x1024 .f32) (ix2 p k)
      = ((m ((c : Thread nD τ).loc main_arg1)) : S16384x1024.Idx → EReal) (ix2 (rowOf t p) k) := by
  have hi := idx1 t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * p.val = 512 * t.val + p.val; rw [hi.1]; omega
  | ⟨1, _⟩ => show win0_1.index t (1 : Fin 2) * 1024 + 1 * k.val = k.val; rw [hi.2]; omega

/-- Window 2's block at point `t` is rows `512 t … 512 t + 511` of the running numerator. -/
theorem rows2 (c : Dev nD) (t : Fin cfg0.N) (p : Fin 512) (k : Fin 1024) :
    (iblk m c 2 t : Vec Ideal S512x1024 .f32) (ix2 p k)
      = ((m ((c : Thread nD τ).loc main_arg2)) : S16384x1024.Idx → EReal) (ix2 (rowOf t p) k) := by
  have hi := idx2 t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 512 + 1 * p.val = 512 * t.val + p.val; rw [hi.1]; omega
  | ⟨1, _⟩ => show win0_2.index t (1 : Fin 2) * 1024 + 1 * k.val = k.val; rw [hi.2]; omega

/-- Window 3's block at point `t` is rows `512 t … 512 t + 511` of the running denominator. -/
theorem rows3 (c : Dev nD) (t : Fin cfg0.N) (p : Fin 512) (k : Fin 1024) :
    (iblk m c 3 t : Vec Ideal S512x1024 .f32) (ix2 p k)
      = ((m ((c : Thread nD τ).loc main_arg3)) : S16384x1024.Idx → EReal) (ix2 (rowOf t p) k) := by
  have hi := idx3 t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 512 + 1 * p.val = 512 * t.val + p.val; rw [hi.1]; omega
  | ⟨1, _⟩ => show win0_3.index t (1 : Fin 2) * 1024 + 1 * k.val = k.val; rw [hi.2]; omega

/-- Window 5's block at every point is the whole `mix_v` row. -/
theorem whole5 (c : Dev nD) (t : Fin cfg0.N) :
    (iblk m c 5 t : Vec Ideal S1x1024 .f32) = ((m ((c : Thread nD τ).loc main_arg5)) : S1x1024.Idx → EReal) := by
  have hi := idx5 t
  unfold iblk
  funext y
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 1 + 1 * (y 0).val = (y 0).val; rw [hi.1]; omega
  | ⟨1, _⟩ => show win0_5.index t (1 : Fin 2) * 1024 + 1 * (y 1).val = (y 1).val; rw [hi.2]; omega

/-- Window 6's block at every point is the whole `mix_r` row. -/
theorem whole6 (c : Dev nD) (t : Fin cfg0.N) :
    (iblk m c 6 t : Vec Ideal S1x1024 .f32) = ((m ((c : Thread nD τ).loc main_arg6)) : S1x1024.Idx → EReal) := by
  have hi := idx6 t
  unfold iblk
  funext y
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 2) * 1 + 1 * (y 0).val = (y 0).val; rw [hi.1]; omega
  | ⟨1, _⟩ => show win0_6.index t (1 : Fin 2) * 1024 + 1 * (y 1).val = (y 1).val; rw [hi.2]; omega

/-- Window 8's block at every point is the whole bonus row. -/
theorem whole8 (c : Dev nD) (t : Fin cfg0.N) :
    (iblk m c 8 t : Vec Ideal S1x1024 .f32) = ((m ((c : Thread nD τ).loc main_arg8)) : S1x1024.Idx → EReal) := by
  have hi := idx8 t
  unfold iblk
  funext y
  rw [View.read_apply]
  show V m c main_arg8 _ = _
  rw [V_main_arg8]
  refine congrArg (m ((c : Thread nD τ).loc main_arg8)) (funext fun a => Fin.ext ?_)
  match a with
  | ⟨0, _⟩ => show win0_8.index t (0 : Fin 2) * 1 + 1 * (y 0).val = (y 0).val; rw [hi.1]; omega
  | ⟨1, _⟩ => show win0_8.index t (1 : Fin 2) * 1024 + 1 * (y 1).val = (y 1).val; rw [hi.2]; omega

/-- Window 10's block at every point is the whole value weight matrix. -/
theorem whole10 (c : Dev nD) (t : Fin cfg0.N) :
    (iblk m c 10 t : Vec Ideal S1024x1024 .bf16) = ((m ((c : Thread nD τ).loc main_arg10)) : S1024x1024.Idx → EReal) := by
  have hi := idx10 t
  unfold iblk
  funext y
  rw [View.read_apply]
  show (V m c main_v4 : S1024x1024.Idx → EReal) _ = _
  rw [V_Wv]
  refine congrArg (m ((c : Thread nD τ).loc main_arg10)) (funext fun a => Fin.ext ?_)
  match a with
  | ⟨0, _⟩ => show win0_10.index t (0 : Fin 2) * 1024 + 1 * (y 0).val = (y 0).val; rw [hi.1]; omega
  | ⟨1, _⟩ => show win0_10.index t (1 : Fin 2) * 1024 + 1 * (y 1).val = (y 1).val; rw [hi.2]; omega

/-- Window 11's block at every point is the whole receptance weight matrix. -/
theorem whole11 (c : Dev nD) (t : Fin cfg0.N) :
    (iblk m c 11 t : Vec Ideal S1024x1024 .bf16) = ((m ((c : Thread nD τ).loc main_arg11)) : S1024x1024.Idx → EReal) := by
  have hi := idx11 t
  unfold iblk
  funext y
  rw [View.read_apply]
  show (V m c main_v5 : S1024x1024.Idx → EReal) _ = _
  rw [V_Wr]
  refine congrArg (m ((c : Thread nD τ).loc main_arg11)) (funext fun a => Fin.ext ?_)
  match a with
  | ⟨0, _⟩ => show win0_11.index t (0 : Fin 2) * 1024 + 1 * (y 0).val = (y 0).val; rw [hi.1]; omega
  | ⟨1, _⟩ => show win0_11.index t (1 : Fin 2) * 1024 + 1 * (y 1).val = (y 1).val; rw [hi.2]; omega

/-- Window 12's block at every point is the whole output weight matrix. -/
theorem whole12 (c : Dev nD) (t : Fin cfg0.N) :
    (iblk m c 12 t : Vec Ideal S1024x1024 .bf16) = ((m ((c : Thread nD τ).loc main_arg12)) : S1024x1024.Idx → EReal) := by
  have hi := idx12 t
  unfold iblk
  funext y
  rw [View.read_apply]
  show (V m c main_v6 : S1024x1024.Idx → EReal) _ = _
  rw [V_Wo]
  refine congrArg (m ((c : Thread nD τ).loc main_arg12)) (funext fun a => Fin.ext ?_)
  match a with
  | ⟨0, _⟩ => show win0_12.index t (0 : Fin 2) * 1024 + 1 * (y 0).val = (y 0).val; rw [hi.1]; omega
  | ⟨1, _⟩ => show win0_12.index t (1 : Fin 2) * 1024 + 1 * (y 1).val = (y 1).val; rw [hi.2]; omega

/-! ## The three result arrays the specification gives from core `c`'s argument arrays -/

/-- The hidden output. -/
def hiddenOf (c : Dev nD) : S16384x1024.Idx → EReal := fun i =>
  hiddenAt (R := 16384) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8))
    (m ((c : Thread nD τ).loc main_arg9)) (m ((c : Thread nD τ).loc main_arg10)) (m ((c : Thread nD τ).loc main_arg11))
    (m ((c : Thread nD τ).loc main_arg12)) (i 0) (i 1)

/-- The new numerator. -/
def numOf (c : Dev nD) : S16384x1024.Idx → EReal := fun i =>
  numAt (R := 16384) (m ((c : Thread nD τ).loc main_arg0)) (m ((c : Thread nD τ).loc main_arg1))
    (m ((c : Thread nD τ).loc main_arg2)) (m ((c : Thread nD τ).loc main_arg4)) (m ((c : Thread nD τ).loc main_arg5))
    (decayRow (m ((c : Thread nD τ).loc main_arg7))) (m ((c : Thread nD τ).loc main_arg9))
    (m ((c : Thread nD τ).loc main_arg10)) (i 0) (i 1)

/-- The new denominator. -/
def denOf (c : Dev nD) : S16384x1024.Idx → EReal := fun i =>
  denAt (R := 16384) (m ((c : Thread nD τ).loc main_arg0)) (m ((c : Thread nD τ).loc main_arg1))
    (m ((c : Thread nD τ).loc main_arg3)) (m ((c : Thread nD τ).loc main_arg4))
    (decayRow (m ((c : Thread nD τ).loc main_arg7))) (m ((c : Thread nD τ).loc main_arg9)) (i 0) (i 1)

/-! ## What a point writes back -/

/-- Point `t` writes back rows `512 t … 512 t + 511` of the hidden output. -/
theorem flushed13_eq (c : Dev nD) (t : Fin cfg0.N) :
    (dats m 0 c).flushed 13 t = ((cfg0.win 13).blk t).view.read (Elt Ideal) (hiddenOf m c) := by
  rw [flushed13]
  unfold out0_13
  rw [View.canon_unit_zero hz]
  simp only [View.ld_unit_zero (S := S512x1024) hz, View.ld_unit_zero (S := S1x1024) hz, View.ld_unit_zero (S := S1024x1024) hz]
  funext y
  obtain ⟨p, j, rfl⟩ : ∃ (p : Fin 512) (j : Fin 1024), y = ix2 p j := ⟨y 0, y 1, eq_ix2 y⟩
  have hi := idx13 t
  have e : ((cfg0.win 13).blk t).view.emb (ix2 p j) = ix2 (rowOf t p) j := funext fun a => Fin.ext (by
    match a with
    | ⟨0, _⟩ => show win0_13.index t (0 : Fin 2) * 512 + 1 * p.val = 512 * t.val + p.val; rw [hi.1]; omega
    | ⟨1, _⟩ => show win0_13.index t (1 : Fin 2) * 1024 + 1 * j.val = j.val; rw [hi.2]; omega)
  show k0_pay5 (F := Ideal) _ _ _ _ _ _ _ _ _ (ix2 p j) = hiddenOf m c (((cfg0.win 13).blk t).view.emb (ix2 p j))
  rw [e]
  exact hidden_point (iblk m c 0 t) (iblk m c 1 t) (iblk m c 2 t) (iblk m c 3 t) (iblk m c 4 t) (iblk m c 5 t) (iblk m c 6 t)
    (iblk m c 8 t) (iblk m c 9 t) (iblk m c 10 t) (iblk m c 11 t) (iblk m c 12 t) _ _ _ _ _ _ _ _ _ _ _ _ p (rowOf t p)
    (rows0 m c t p) (rows1 m c t p) (rows2 m c t p) (rows3 m c t p) (whole4 m c t) (whole5 m c t) (whole6 m c t)
    (whole8 m c t) (whole9 m c t) (whole10 m c t) (whole11 m c t) (whole12 m c t) j

/-- Point `t` writes back rows `512 t … 512 t + 511` of the new numerator. -/
theorem flushed14_eq (c : Dev nD) (t : Fin cfg0.N) :
    (dats m 0 c).flushed 14 t = ((cfg0.win 14).blk t).view.read (Elt Ideal) (numOf m c) := by
  rw [flushed14]
  unfold out0_14
  rw [View.canon_unit_zero hz]
  simp only [View.ld_unit_zero (S := S512x1024) hz, View.ld_unit_zero (S := S1x1024) hz, View.ld_unit_zero (S := S1024x1024) hz]
  funext y
  obtain ⟨p, j, rfl⟩ : ∃ (p : Fin 512) (j : Fin 1024), y = ix2 p j := ⟨y 0, y 1, eq_ix2 y⟩
  have hi := idx14 t
  have e : ((cfg0.win 14).blk t).view.emb (ix2 p j) = ix2 (rowOf t p) j := funext fun a => Fin.ext (by
    match a with
    | ⟨0, _⟩ => show win0_14.index t (0 : Fin 2) * 512 + 1 * p.val = 512 * t.val + p.val; rw [hi.1]; omega
    | ⟨1, _⟩ => show win0_14.index t (1 : Fin 2) * 1024 + 1 * j.val = j.val; rw [hi.2]; omega)
  show k0_pay3 (F := Ideal) _ _ _ _ (ix2 p j) = numOf m c (((cfg0.win 14).blk t).view.emb (ix2 p j))
  rw [e]
  exact num_point (iblk m c 0 t) (iblk m c 1 t) (iblk m c 2 t) (iblk m c 4 t) (iblk m c 5 t) (iblk m c 7 t)
    (iblk m c 9 t) (iblk m c 10 t) _ _ _ _ _ _ _ _ p (rowOf t p)
    (rows0 m c t p) (rows1 m c t p) (rows2 m c t p) (whole4 m c t) (whole5 m c t) (whole7 m c t)
    (whole9 m c t) (whole10 m c t) j

/-- Point `t` writes back rows `512 t … 512 t + 511` of the new denominator. -/
theorem flushed15_eq (c : Dev nD) (t : Fin cfg0.N) :
    (dats m 0 c).flushed 15 t = ((cfg0.win 15).blk t).view.read (Elt Ideal) (denOf m c) := by
  rw [flushed15]
  unfold out0_15
  rw [View.canon_unit_zero hz]
  simp only [View.ld_unit_zero (S := S512x1024) hz, View.ld_unit_zero (S := S1x1024) hz, View.ld_unit_zero (S := S1024x1024) hz]
  funext y
  obtain ⟨p, j, rfl⟩ : ∃ (p : Fin 512) (j : Fin 1024), y = ix2 p j := ⟨y 0, y 1, eq_ix2 y⟩
  have hi := idx15 t
  have e : ((cfg0.win 15).blk t).view.emb (ix2 p j) = ix2 (rowOf t p) j := funext fun a => Fin.ext (by
    match a with
    | ⟨0, _⟩ => show win0_15.index t (0 : Fin 2) * 512 + 1 * p.val = 512 * t.val + p.val; rw [hi.1]; omega
    | ⟨1, _⟩ => show win0_15.index t (1 : Fin 2) * 1024 + 1 * j.val = j.val; rw [hi.2]; omega)
  show k0_pay4 (F := Ideal) _ _ _ (ix2 p j) = denOf m c (((cfg0.win 15).blk t).view.emb (ix2 p j))
  rw [e]
  exact den_point (iblk m c 0 t) (iblk m c 1 t) (iblk m c 3 t) (iblk m c 4 t) (iblk m c 7 t) (iblk m c 9 t)
    _ _ _ _ _ _ p (rowOf t p)
    (rows0 m c t p) (rows1 m c t p) (rows3 m c t p) (whole4 m c t) (whole7 m c t) (whole9 m c t) j

/-! ## The blocks cover the arrays -/

/-- An index is in point `t`'s block of window 13 iff each coordinate is in the block's range on its axis. -/
theorem mem_blk13 (t : Fin cfg0.N) (i : S16384x1024.Idx) :
    i ∈ ((cfg0.win 13).blk t).view.set ↔ ∀ a : Fin 2, win0_13.index t a * S512x1024.size a ≤ (i a).val
      ∧ (i a).val < win0_13.index t a * S512x1024.size a + S512x1024.size a := by
  show i ∈ ((View.whole main_v7_0).slice (win0_13.rect t)).set ↔ _
  rw [View.set_slice_whole, Rect.mem_set_unit]
  exact Iff.rfl

theorem mem_blk14 (t : Fin cfg0.N) (i : S16384x1024.Idx) :
    i ∈ ((cfg0.win 14).blk t).view.set ↔ ∀ a : Fin 2, win0_14.index t a * S512x1024.size a ≤ (i a).val
      ∧ (i a).val < win0_14.index t a * S512x1024.size a + S512x1024.size a := by
  show i ∈ ((View.whole main_v7_1).slice (win0_14.rect t)).set ↔ _
  rw [View.set_slice_whole, Rect.mem_set_unit]
  exact Iff.rfl

theorem mem_blk15 (t : Fin cfg0.N) (i : S16384x1024.Idx) :
    i ∈ ((cfg0.win 15).blk t).view.set ↔ ∀ a : Fin 2, win0_15.index t a * S512x1024.size a ≤ (i a).val
      ∧ (i a).val < win0_15.index t a * S512x1024.size a + S512x1024.size a := by
  show i ∈ ((View.whole main_v7_2).slice (win0_15.rect t)).set ↔ _
  rw [View.set_slice_whole, Rect.mem_set_unit]
  exact Iff.rfl

/-- Row `r` of the hidden output is written back by point `r / 512`. -/
theorem cover13 (i : S16384x1024.Idx) :
    ∃ t : Fin cfg0.N, (cfg0.win 13).flush t = true ∧ i ∈ ((cfg0.win 13).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  have hx := idx13 t
  refine ⟨t, flush0_13 t, ?_⟩
  rw [mem_blk13]
  intro a
  match a with
  | ⟨0, _⟩ =>
    show win0_13.index t (0 : Fin 2) * 512 ≤ (i 0).val ∧ (i 0).val < win0_13.index t (0 : Fin 2) * 512 + 512
    rw [hx.1, ht]; omega
  | ⟨1, _⟩ =>
    show win0_13.index t (1 : Fin 2) * 1024 ≤ (i 1).val ∧ (i 1).val < win0_13.index t (1 : Fin 2) * 1024 + 1024
    rw [hx.2]; omega

/-- Row `r` of the new numerator is written back by point `r / 512`. -/
theorem cover14 (i : S16384x1024.Idx) :
    ∃ t : Fin cfg0.N, (cfg0.win 14).flush t = true ∧ i ∈ ((cfg0.win 14).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  have hx := idx14 t
  refine ⟨t, flush0_14 t, ?_⟩
  rw [mem_blk14]
  intro a
  match a with
  | ⟨0, _⟩ =>
    show win0_14.index t (0 : Fin 2) * 512 ≤ (i 0).val ∧ (i 0).val < win0_14.index t (0 : Fin 2) * 512 + 512
    rw [hx.1, ht]; omega
  | ⟨1, _⟩ =>
    show win0_14.index t (1 : Fin 2) * 1024 ≤ (i 1).val ∧ (i 1).val < win0_14.index t (1 : Fin 2) * 1024 + 1024
    rw [hx.2]; omega

/-- Row `r` of the new denominator is written back by point `r / 512`. -/
theorem cover15 (i : S16384x1024.Idx) :
    ∃ t : Fin cfg0.N, (cfg0.win 15).flush t = true ∧ i ∈ ((cfg0.win 15).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  have hx := idx15 t
  refine ⟨t, flush0_15 t, ?_⟩
  rw [mem_blk15]
  intro a
  match a with
  | ⟨0, _⟩ =>
    show win0_15.index t (0 : Fin 2) * 512 ≤ (i 0).val ∧ (i 0).val < win0_15.index t (0 : Fin 2) * 512 + 512
    rw [hx.1, ht]; omega
  | ⟨1, _⟩ =>
    show win0_15.index t (1 : Fin 2) * 1024 ≤ (i 1).val ∧ (i 1).val < win0_15.index t (1 : Fin 2) * 1024 + 1024
    rw [hx.2]; omega

/-! ## The arrays after the run -/

theorem final13 (c : Dev nD) : (dats m 0 c).arrAt 13 cfg0.N = hiddenOf m c :=
  (dats m 0 c).arrAt_eq_of_cover 13 (hiddenOf m c) (fun t _ => flushed13_eq m c t) cover13

theorem final14 (c : Dev nD) : (dats m 0 c).arrAt 14 cfg0.N = numOf m c :=
  (dats m 0 c).arrAt_eq_of_cover 14 (numOf m c) (fun t _ => flushed14_eq m c t) cover14

theorem final15 (c : Dev nD) : (dats m 0 c).arrAt 15 cfg0.N = denOf m c :=
  (dats m 0 c).arrAt_eq_of_cover 15 (denOf m c) (fun t _ => flushed15_eq m c t) cover15

/-- The kernel's run: the three result arrays end at the specification of the argument arrays, which end unchanged. -/
theorem run : θ_run defs (onTc (τ := τ) (main (F := Ideal))) ⟨m, fun _ => 0, ρ⟩ fun r => ∀ c : Dev nD,
      r.2.mem ((c : Thread nD τ).loc main_v7_0) = hiddenOf m c
      ∧ r.2.mem ((c : Thread nD τ).loc main_v7_1) = numOf m c
      ∧ r.2.mem ((c : Thread nD τ).loc main_v7_2) = denOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c),
      (h c).2.2.1.trans (final15 m c), (h c).2.2.2⟩)
    (run_blocks m ρ)

end Cert.Rwkv.KValue

end
-- ==== Proof.RefValue.lean ====
/-
  The reference program read entry by entry on the extended reals.

  The reference computes the same step on the whole batch at once: each interpolation is a row broadcast of the learned
  row and of one minus it, each projection a `dot_general` over the column, the logistic spelt `1 / (1 + exp (−z))`.
  Entry (r, j) of each of its three results is the time-mixing specification at row r: a `dot_general` is the plain sum
  over the contracted column, a row broadcast reads the row, and `1 / (1 + exp (−z))` is the logistic of `z`.
-/
import proofs.«181762_j73409581023491_2_alg».proof.Proof.Gen.ReferenceIdeal.Read
import proofs.«181762_j73409581023491_2_alg».proof.Proof.Spec
import Idealize.ShloMosaic.Lib.IdealHost

noncomputable section

open scoped BigOperators

namespace Cert.Rwkv.Ref

open Cert.ReferenceIdeal Cert.ReferenceIdeal.Read Idealize.ShloMosaic Idealize.ShloMosaic.ValueIdx Cert.Rwkv

/-! ## Where the reference's layout operations read -/

theorem row0 (r : Fin 16384) (k : Fin 1024) : idx_main_v0 (ix2 r k) = ix2 (0 : Fin 1) k :=
  funext fun a => Fin.ext (by match a with | ⟨0, _⟩ => rfl | ⟨1, _⟩ => rfl)
theorem row4 (r : Fin 16384) (k : Fin 1024) : idx_main_v4 (ix2 r k) = ix2 (0 : Fin 1) k :=
  funext fun a => Fin.ext (by match a with | ⟨0, _⟩ => rfl | ⟨1, _⟩ => rfl)
theorem row30 (r : Fin 16384) (k : Fin 1024) : idx_main_v30 (ix2 r k) = ix2 (0 : Fin 1) k :=
  funext fun a => Fin.ext (by match a with | ⟨0, _⟩ => rfl | ⟨1, _⟩ => rfl)
theorem row42 (r : Fin 16384) (k : Fin 1024) : idx_main_v42 (ix2 r k) = ix2 (0 : Fin 1) k :=
  funext fun a => Fin.ext (by match a with | ⟨0, _⟩ => rfl | ⟨1, _⟩ => rfl)
theorem row46 (r : Fin 16384) (k : Fin 1024) : idx_main_v46 (ix2 r k) = ix2 (0 : Fin 1) k :=
  funext fun a => Fin.ext (by match a with | ⟨0, _⟩ => rfl | ⟨1, _⟩ => rfl)
theorem lcol7 (r : Fin 16384) (j k : Fin 1024) : lidx_main_v7 (ix2 r j) k = ix2 r k :=
  funext fun a => Fin.ext (by match a with | ⟨0, _⟩ => rfl | ⟨1, _⟩ => rfl)
theorem rcol7 (r : Fin 16384) (j k : Fin 1024) : ridx_main_v7 (ix2 r j) k = ix2 k j :=
  funext fun a => Fin.ext (by match a with | ⟨0, _⟩ => rfl | ⟨1, _⟩ => rfl)
theorem lcol49 (r : Fin 16384) (j k : Fin 1024) : lidx_main_v49 (ix2 r j) k = ix2 r k :=
  funext fun a => Fin.ext (by match a with | ⟨0, _⟩ => rfl | ⟨1, _⟩ => rfl)
theorem rcol49 (r : Fin 16384) (j k : Fin 1024) : ridx_main_v49 (ix2 r j) k = ix2 k j :=
  funext fun a => Fin.ext (by match a with | ⟨0, _⟩ => rfl | ⟨1, _⟩ => rfl)

/-! ## The interpolation and the projection, for any learned row and weights -/

/-- The reference's interpolation at (r, k). -/
theorem mix_ref (x0 x1 : (⟨S16384x1024, .f32⟩ : BufTy).Contents (Elt Ideal)) (mu : (⟨S1x1024, .f32⟩ : BufTy).Contents (Elt Ideal))
    (r : Fin 16384) (k : Fin 1024) :
    val_main_v6 (F := Ideal) x0 x1 mu (ix2 r k) = mixAt x0 x1 mu r k := by
  rw [val_main_v6_apply, val_main_v1_apply, val_main_v5_apply, val_main_v0_apply, val_main_v4_apply, val_main_v3_apply,
    val_main_v2_apply, val_main_cst_apply, row0, row4]
  rfl

/-- The reference's projection at (r, j). -/
theorem proj_ref (x0 x1 : (⟨S16384x1024, .f32⟩ : BufTy).Contents (Elt Ideal)) (mu : (⟨S1x1024, .f32⟩ : BufTy).Contents (Elt Ideal))
    (W : (⟨S1024x1024, .f32⟩ : BufTy).Contents (Elt Ideal)) (r : Fin 16384) (j : Fin 1024) :
    val_main_v7 (F := Ideal) x0 x1 mu W (ix2 r j) = projAt x0 x1 mu W r j := by
  rw [val_main_v7_apply]
  unfold projAt
  exact Finset.sum_congr rfl fun k _ => by rw [lcol7, rcol7, mix_ref]

/-- The value's and the receptance's projections are the same program text over other operands. -/
theorem v15_eq (x0 x1 : (⟨S16384x1024, .f32⟩ : BufTy).Contents (Elt Ideal)) (x5 : (⟨S1x1024, .f32⟩ : BufTy).Contents (Elt Ideal))
    (x10 : (⟨S1024x1024, .f32⟩ : BufTy).Contents (Elt Ideal)) :
    val_main_v15 (F := Ideal) x0 x1 x5 x10 = val_main_v7 (F := Ideal) x0 x1 x5 x10 := rfl
theorem v23_eq (x0 x1 : (⟨S16384x1024, .f32⟩ : BufTy).Contents (Elt Ideal)) (x6 : (⟨S1x1024, .f32⟩ : BufTy).Contents (Elt Ideal))
    (x11 : (⟨S1024x1024, .f32⟩ : BufTy).Contents (Elt Ideal)) :
    val_main_v23 (F := Ideal) x0 x1 x6 x11 = val_main_v7 (F := Ideal) x0 x1 x6 x11 := rfl

/-! ## The three results -/

/-- The reference's gated read-out at (r, k). -/
theorem rwkv_ref (x0 x1 x2 x3 : (⟨S16384x1024, .f32⟩ : BufTy).Contents (Elt Ideal))
    (x4 x5 x6 x8 : (⟨S1x1024, .f32⟩ : BufTy).Contents (Elt Ideal)) (x9 x10 x11 : (⟨S1024x1024, .f32⟩ : BufTy).Contents (Elt Ideal))
    (r : Fin 16384) (k : Fin 1024) :
    val_main_v37 (F := Ideal) x0 x1 x2 x3 x4 x5 x6 x8 x9 x10 x11 (ix2 r k)
      = rwkvAt x0 x1 x2 x3 x4 x5 x6 x8 x9 x10 x11 r k := by
  rw [val_main_v37_apply, val_main_v29_apply, val_main_v28_apply, val_main_cst_3_apply, val_main_v27_apply, val_main_v26_apply,
    val_main_cst_2_apply, val_main_v25_apply, val_main_v24_apply, val_main_v36_apply, val_main_v34_apply, val_main_v33_apply,
    val_main_v35_apply, val_main_v32_apply, val_main_v31_apply, val_main_v30_apply, row30, v15_eq, v23_eq, proj_ref, proj_ref,
    proj_ref]
  unfold rwkvAt gate
  show Ideal.div (Ideal.ofBits .f32 0x3F800000#32) (Ideal.ofBits .f32 0x3F800000#32 + Ideal.exp (-(projAt x0 x1 x6 x11 r k))) * _ = _
  rw [Ideal.ofBits_one_f32]
  rfl

/-- The reference's hidden output is the specification's, entry by entry. -/
theorem hidden_ref (x0 x1 x2 x3 : (⟨S16384x1024, .f32⟩ : BufTy).Contents (Elt Ideal))
    (x4 x5 x6 x8 : (⟨S1x1024, .f32⟩ : BufTy).Contents (Elt Ideal)) (x9 x10 x11 x12 : (⟨S1024x1024, .f32⟩ : BufTy).Contents (Elt Ideal)) :
    val_main_v49 (F := Ideal) x0 x1 x2 x3 x4 x5 x6 x8 x9 x10 x11 x12
      = fun i => hiddenAt x0 x1 x2 x3 x4 x5 x6 x8 x9 x10 x11 x12 (i 0) (i 1) := by
  funext i
  obtain ⟨r, j, rfl⟩ : ∃ (r : Fin 16384) (j : Fin 1024), i = ix2 r j := ⟨i 0, i 1, eq_ix2 i⟩
  rw [val_main_v49_apply]
  show _ = hiddenAt x0 x1 x2 x3 x4 x5 x6 x8 x9 x10 x11 x12 r j
  unfold hiddenAt
  exact Finset.sum_congr rfl fun k _ => by rw [lcol49, rcol49, rwkv_ref]

/-- The reference's new numerator is the specification's, entry by entry. -/
theorem num_ref (x0 x1 x2 : (⟨S16384x1024, .f32⟩ : BufTy).Contents (Elt Ideal))
    (x4 x5 x7 : (⟨S1x1024, .f32⟩ : BufTy).Contents (Elt Ideal)) (x9 x10 : (⟨S1024x1024, .f32⟩ : BufTy).Contents (Elt Ideal)) :
    val_main_v45 (F := Ideal) x0 x1 x2 x4 x5 x7 x9 x10
      = fun i => numAt x0 x1 x2 x4 x5 (decayRow x7) x9 x10 (i 0) (i 1) := by
  funext i
  obtain ⟨r, j, rfl⟩ : ∃ (r : Fin 16384) (j : Fin 1024), i = ix2 r j := ⟨i 0, i 1, eq_ix2 i⟩
  rw [val_main_v45_apply, val_main_v43_apply, val_main_v42_apply, val_main_v44_apply, val_main_v41_apply, row42, v15_eq, proj_ref,
    proj_ref]
  show _ = numAt x0 x1 x2 x4 x5 (decayRow x7) x9 x10 r j
  rfl

/-- The reference's new denominator is the specification's, entry by entry. -/
theorem den_ref (x0 x1 x3 : (⟨S16384x1024, .f32⟩ : BufTy).Contents (Elt Ideal))
    (x4 x7 : (⟨S1x1024, .f32⟩ : BufTy).Contents (Elt Ideal)) (x9 : (⟨S1024x1024, .f32⟩ : BufTy).Contents (Elt Ideal)) :
    val_main_v48 (F := Ideal) x0 x1 x3 x4 x7 x9
      = fun i => denAt x0 x1 x3 x4 (decayRow x7) x9 (i 0) (i 1) := by
  funext i
  obtain ⟨r, j, rfl⟩ : ∃ (r : Fin 16384) (j : Fin 1024), i = ix2 r j := ⟨i 0, i 1, eq_ix2 i⟩
  rw [val_main_v48_apply, val_main_v47_apply, val_main_v46_apply, val_main_v41_apply, row46, proj_ref]
  show _ = denAt x0 x1 x3 x4 (decayRow x7) x9 r j
  rfl

end Cert.Rwkv.Ref

end
-- ==== Proof.lean ====
/-
  One step of RWKV time mixing: a Pallas kernel over 32 blocks of 512 rows against the plain jnp formula, equal on the
  extended reals.

  Both programs interpolate the current and the previous token by three learned rows, project the interpolations by the
  key, value and receptance weights, read the attention state out as `(ln + exp (bonus + k)·v) / (ld + exp (bonus + k))`
  gated by the logistic of the receptance, project that by the output weights, and move the state to `w·ln + exp k · v`
  and `w·ld + exp k` with `w = exp (−exp decay)`. The kernel rounds its matrix operands to bf16 and works block by
  block; on the extended reals a change of float format is the identity, a matrix product into a zero accumulator and
  the host's `dot_general` are the same sum over the contracted column, the kernel's logistic is the reference's
  `1 / (1 + exp (−z))`, and every entry of the results reads one row of the batch arrays, so a block of rows computed
  apart is those rows of the whole. No algebraic law beyond these readings joins the two sides: both compute the same
  expression entry by entry (Proof/Spec.lean), so finiteness of the inputs is never used.

  Proof/KernelPay.lean reads the kernel body's arithmetic at an entry, Proof/KernelValue.lean carries the blocks to the
  three result arrays, Proof/RefValue.lean reads the reference at an entry; here the claims are assembled.
-/
import proofs.«181762_j73409581023491_2_alg».proof.Defs
import proofs.«181762_j73409581023491_2_alg».proof.Proof.Gen.Kernel
import proofs.«181762_j73409581023491_2_alg».proof.Proof.Gen.Kernel.Frame
import proofs.«181762_j73409581023491_2_alg».proof.Proof.Gen.KernelIdeal
import proofs.«181762_j73409581023491_2_alg».proof.Proof.Gen.KernelIdeal.Frame
import proofs.«181762_j73409581023491_2_alg».proof.Proof.Gen.KernelIdeal.Value
import proofs.«181762_j73409581023491_2_alg».proof.Proof.Gen.ReferenceIdeal
import proofs.«181762_j73409581023491_2_alg».proof.Proof.Gen.ReferenceIdeal.Run
import proofs.«181762_j73409581023491_2_alg».proof.Proof.Gen.ReferenceIdeal.Read
import proofs.«181762_j73409581023491_2_alg».proof.Proof.Gen.Pre_finite_inputs
import proofs.«181762_j73409581023491_2_alg».proof.Proof.KernelValue
import proofs.«181762_j73409581023491_2_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments both programs end with the specification's three arrays (and the current
    tokens passed through): the kernel block by block, the reference entry by entry. -/
theorem algebraic : Cert.algebraic_KernelIdeal_ReferenceIdeal := by
  intro m ρ m' ρ' _ hagree
  refine ⟨fun c => Cert.Rwkv.KValue.hiddenOf m c, fun c => m ((c : Thread Cert.KernelIdeal.nD Cert.KernelIdeal.τ).loc Cert.KernelIdeal.main_arg0),
    fun c => Cert.Rwkv.KValue.numOf m c, fun c => Cert.Rwkv.KValue.denOf m c, ?_, ?_⟩
  · refine (θ_run Cert.KernelIdeal.defs _ _).mono (fun r h c => ?_) (Cert.Rwkv.KValue.run m ρ)
    obtain ⟨k0, k1, k2, a0, rest⟩ := h c
    exact ⟨k0, a0, k1, k2, a0, rest⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12⟩ := hagree c
    obtain ⟨r49, ra0, r45, r48, rest⟩ := h c
    refine ⟨r49.trans ?_, ra0.trans h0, r45.trans ?_, r48.trans ?_, rest⟩
    · rw [Cert.ReferenceIdeal.Read.val_main_v49_eq, Cert.Rwkv.Ref.hidden_ref, h0, h1, h2, h3, h4, h5, h6, h8, h9, h10, h11, h12]
      rfl
    · rw [Cert.ReferenceIdeal.Read.val_main_v45_eq, Cert.Rwkv.Ref.num_ref, h0, h1, h2, h4, h5, h7, h9, h10]
      rfl
    · rw [Cert.ReferenceIdeal.Read.val_main_v48_eq, Cert.Rwkv.Ref.den_ref, h0, h1, h3, h4, h7, h9]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
